-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S1600000x128 : Shape := ⟨2, ![1600000, 128]⟩
abbrev S2000x1 : Shape := ⟨2, ![2000, 1]⟩
abbrev S1x128 : Shape := ⟨2, ![1, 128]⟩

abbrev nBuf : Space → Nat
  | .hbm => 69
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x128, .f32⟩
  | .hbm, ⟨52, _⟩ => ⟨S1600000x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S128x128, .f32⟩
  | .local _ .vmem, ⟨14, _⟩ => ⟨S128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S128_S128_0 : ∀ a, (![0] : Fin 1 → Nat) a + S128.size a ≤ S128.size a
  h_S128 : 0 < S128.numel
  broadcasts_S2000x1_S2000x128 : S2000x1.Broadcasts S2000x128
  shapeCasts_S128_S1x128 : S128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x128, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .i1⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.NamedRun.lean ====
/-
  The kernel program's run with its result named.

  The program is two grid launches among host operations. Its frame certificate follows the buffers' contents from
  the launch through each stretch of host operations and each launch to the return, and concludes that the argument
  arrays end as they began. The very same run also determines the result buffer: at the return it holds what the
  second launch's write-backs left in it. This module restates the run with that one more conjunct, so that the
  value of the result can be read off the second launch's blocks.
-/
import proofs.«167708_j19980187861403_1_alg».proof.Proof.Gen.KernelIdeal.Frame

set_option maxRecDepth 16384

noncomputable section

namespace Cert.GcnLayer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; at the return the result buffer
    holds the contents the run's last boundary gives it, and the six argument arrays are as launched. -/
theorem run_named : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.GcnLayer

end
-- ==== Proof.Spec.lean ====
/-
  One graph-convolution layer with an improved self-loop, a skip projection and an ELU, entry by entry.

  For node `r` and output feature `j` the layer's value is
      elu ( agg[r,j] + scale[r] * h[r,j] + b_conv[j] + (x W_skip)[r,j] + b_skip[j] ),
  where `h = x W_conv`, `agg` is the normalised sum of the neighbours' rows of `h` and `scale[r]` the
  self-loop weight 2 / deg[r]; both `agg` and `scale` are computed from the edge list by the same host
  operations on the two sides, so they enter here as given arrays. The sum is taken in this order, left to
  right, on the extended reals, so no law beyond the definitions is used to join the two programs.
  `elu o` is `o` where `o > 0` and `0.1 * (exp o - 1)` elsewhere, the three literals kept as their f32 words.
-/
import Idealize.ShloMosaic.PureOps.Ideal
import Idealize.ShloMosaic.PureOps.Ideal.Laws
import Idealize.ShloMosaic.Lib.ValueIdx

noncomputable section

namespace Cert.GcnLayer

open Idealize.ShloMosaic Idealize.ShloMosaic.ValueIdx

/-- Row `r` of `x` times column `j` of `w`: the entry `(r, j)` of the product `x w`, as a plain sum over the
    128 shared coordinates. -/
def rowCol {n : ℕ} (x : (⟨2, ![n, 128]⟩ : Shape).Idx → EReal) (w : (⟨2, ![128, 128]⟩ : Shape).Idx → EReal)
    (r : Fin n) (j : Fin 128) : EReal :=
  ∑ k : Fin 128, x (ix2 r k) * w (ix2 k j)

/-- The product `x w` as an array. -/
def product {n : ℕ} (x : (⟨2, ![n, 128]⟩ : Shape).Idx → EReal) (w : (⟨2, ![128, 128]⟩ : Shape).Idx → EReal) :
    (⟨2, ![n, 128]⟩ : Shape).Idx → EReal :=
  fun i => rowCol x w (i 0) (i 1)

/-- The activation: `o` where `o > 0`, `0.1 * (exp o - 1)` elsewhere (an ELU of slope 0.1). -/
def elu (o : EReal) : EReal :=
  Scalar.select (FloatOps.cmpf (F := Ideal) (φ := .f32) .ogt o (Ideal.ofBits .f32 0x00000000#32)) o
    (Ideal.ofBits .f32 0x3DCCCCCD#32 * (Ideal.exp o - Ideal.ofBits .f32 0x3F800000#32))

/-- One entry of the layer from its six ingredients, summed left to right. -/
def entry (a s h bc d bs : EReal) : EReal := elu (a + s * h + bc + d + bs)

/-- The layer's output over `n` nodes: `agg` the aggregated neighbour messages, `h = x W_conv`, `sc` the
    self-loop weights, `x` the node features, `ws` the skip weights, `bc`, `bs` the two biases. -/
def layer {n : ℕ} (agg h : (⟨2, ![n, 128]⟩ : Shape).Idx → EReal) (sc : (⟨1, ![n]⟩ : Shape).Idx → EReal)
    (x : (⟨2, ![n, 128]⟩ : Shape).Idx → EReal) (ws : (⟨2, ![128, 128]⟩ : Shape).Idx → EReal)
    (bc bs : (⟨1, ![128]⟩ : Shape).Idx → EReal) : (⟨2, ![n, 128]⟩ : Shape).Idx → EReal :=
  fun i => entry (agg i) (sc (ix1 (i 0))) (h i) (bc (ix1 (i 1))) (rowCol x ws (i 0) (i 1)) (bs (ix1 (i 1)))

theorem layer_ix2 {n : ℕ} (agg h : (⟨2, ![n, 128]⟩ : Shape).Idx → EReal) (sc : (⟨1, ![n]⟩ : Shape).Idx → EReal)
    (x : (⟨2, ![n, 128]⟩ : Shape).Idx → EReal) (ws : (⟨2, ![128, 128]⟩ : Shape).Idx → EReal)
    (bc bs : (⟨1, ![128]⟩ : Shape).Idx → EReal) (r : Fin n) (j : Fin 128) :
    layer agg h sc x ws bc bs (ix2 r j)
      = entry (agg (ix2 r j)) (sc (ix1 r)) (h (ix2 r j)) (bc (ix1 j)) (rowCol x ws r j) (bs (ix1 j)) := rfl

theorem product_ix2 {n : ℕ} (x : (⟨2, ![n, 128]⟩ : Shape).Idx → EReal) (w : (⟨2, ![128, 128]⟩ : Shape).Idx → EReal)
    (r : Fin n) (j : Fin 128) : product x w (ix2 r j) = rowCol x w r j := rfl

end Cert.GcnLayer

end
-- ==== Proof.MatmulBlock.lean ====
/-
  A block of rows times a weight matrix, entry by entry.

  Both kernels multiply a block of 2000 rows of `x` by a whole 128 × 128 weight matrix on the matrix unit, after
  rounding both to bf16, into a zero accumulator. On the extended reals the rounding is the identity and the
  accumulator adds nothing, so entry `(r, j)` of the product is the plain sum over `k` of `x[r,k] * w[k,j]`.
-/
import proofs.«167708_j19980187861403_1_alg».proof.Proof.Gen.KernelIdeal.Skeleton
import proofs.«167708_j19980187861403_1_alg».proof.Proof.Spec
import Idealize.ShloMosaic.Lib.ValueIdx
import Idealize.ShloMosaic.PureOps.Ideal.Laws

noncomputable section

namespace Cert.GcnLayer

open Cert.KernelIdeal Cert.KernelIdeal.Gen Idealize.ShloMosaic Idealize.ShloMosaic.ValueIdx

/-- The contraction record of the block product, by a short name. -/
abbrev blockDot : DotDims S2000x128 S128x128 S2000x128 := dot_S2000x128_S128x128_S2000x128_1_0_0_1_n_n

theorem blockDot_lhs0 (i : S2000x128.Idx) (q : blockDot.contr.Idx) : (blockDot.lhsIdx i q 0).val = (i 0).val := by
  unfold DotDims.lhsIdx
  rw [dif_neg (show ¬(0 : Fin S2000x128.rank) ∈ blockDot.lhsBatch by decide),
    dif_pos (show (0 : Fin S2000x128.rank) ∈ blockDot.lhsNonContracting by decide)]
  rfl

theorem blockDot_lhs1 (i : S2000x128.Idx) (q : blockDot.contr.Idx) :
    (blockDot.lhsIdx i q 1).val = (q ⟨0, by decide⟩).val :=
  blockDot.lhsIdx_val_of_single rfl i q

theorem blockDot_rhs0 (i : S2000x128.Idx) (q : blockDot.contr.Idx) :
    (blockDot.rhsIdx i q 0).val = (q ⟨0, by decide⟩).val :=
  blockDot.rhsIdx_val_of_single rfl i q

theorem blockDot_rhs1 (i : S2000x128.Idx) (q : blockDot.contr.Idx) : (blockDot.rhsIdx i q 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- Entry `(r, j)` of the block product into a zero accumulator is row `r` of the block times column `j` of
    the weights. -/
theorem blockProduct_apply (x : FVec Ideal S2000x128 .bf16) (w : FVec Ideal S128x128 .bf16) (r : Fin 2000) (j : Fin 128) :
    matmul (F := Ideal) blockDot none x w (constant S2000x128 .f32 0x00000000#32) (ix2 r j) = rowCol x w r j := by
  simp only [matmul]
  rw [Ideal.matmul_constant_zero_apply, ← Equiv.sum_comp (contrEquiv1 blockDot 128 rfl rfl).symm]
  unfold rowCol
  refine Finset.sum_congr rfl fun k _ => ?_
  have hk := contrEquiv1_symm_val blockDot 128 rfl rfl k
  have el : blockDot.lhsIdx (ix2 r j) ((contrEquiv1 blockDot 128 rfl rfl).symm k) = ix2 r k :=
    funext fun a => Fin.ext (by
      match a with
      | ⟨0, _⟩ => exact blockDot_lhs0 _ _
      | ⟨1, _⟩ => exact (blockDot_lhs1 _ _).trans hk)
  have er : blockDot.rhsIdx (ix2 r j) ((contrEquiv1 blockDot 128 rfl rfl).symm k) = ix2 k j :=
    funext fun a => Fin.ext (by
      match a with
      | ⟨0, _⟩ => exact (blockDot_rhs0 _ _).trans hk
      | ⟨1, _⟩ => exact blockDot_rhs1 _ _)
  rw [el, er]

/-- What the first kernel stores for a block of rows: the block times the weights. -/
theorem firstPayload_apply (x : Vec Ideal S2000x128 .f32) (w : Vec Ideal S128x128 .f32) (r : Fin 2000) (j : Fin 128) :
    k0_pay1 (F := Ideal) x w (ix2 r j) = rowCol x w r j :=
  blockProduct_apply (truncf .bf16 x bitsLt_bf16_f32) (truncf .bf16 w bitsLt_bf16_f32) r j

end Cert.GcnLayer

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.CombineBlock.lean ====
/-
  What the second kernel stores for a block of rows, entry by entry.

  The body takes the block's rows of `x`, of the aggregated messages `agg`, of `h` and of the self-loop column
  `sc` (2000 × 1), the whole skip weights and the two bias vectors, forms
      agg + sc * h + b_conv + x W_skip + b_skip
  with the column spread along the rows and the biases spread down the columns, and applies the ELU.
  Read at `(r, j)` each spread picks one entry — the column at `(r, 0)`, a bias at `j` — and the block
  product is the plain sum of `MatmulBlock`; the same-shape casts are the identity.
-/
import proofs.«167708_j19980187861403_1_alg».proof.Proof.Gen.KernelIdeal.Skeleton
import proofs.«167708_j19980187861403_1_alg».proof.Proof.Spec
import proofs.«167708_j19980187861403_1_alg».proof.Proof.MatmulBlock
import proofs.«167708_j19980187861403_1_alg».proof.Proof.LibKeepdims
import Idealize.ShloMosaic.Lib.ValueIdx
import Idealize.ShloMosaic.Lib.ValueLayout
import Idealize.ShloMosaic.Lib.Pipeline.Value

noncomputable section

namespace Cert.GcnLayer

open Cert.KernelIdeal Cert.KernelIdeal.Gen Idealize.ShloMosaic Idealize.ShloMosaic.ValueIdx

/-- The block the activation is applied to: the five terms added left to right, as the body forms them. -/
def preActivation (x agg h : Vec Ideal S2000x128 .f32) (sc : Vec Ideal S2000x1 .f32) (ws : Vec Ideal S128x128 .f32)
    (bc bs : Vec Ideal S128 .f32) : FVec Ideal S2000x128 .f32 :=
  addf (addf (addf (addf (shapeCast S2000x128 agg shapeCasts_S2000x128_S2000x128)
        (mulf (broadcastTo S2000x128 (shapeCast S2000x1 (shapeCast S2000x1 sc shapeCasts_S2000x1_S2000x1) shapeCasts_S2000x1_S2000x1) broadcasts_S2000x1_S2000x128)
          (shapeCast S2000x128 h shapeCasts_S2000x128_S2000x128)))
      (broadcastTo S2000x128 (shapeCast S1x128 bc shapeCasts_S128_S1x128) broadcasts_S1x128_S2000x128))
    (matmul blockDot none (truncf .bf16 x bitsLt_bf16_f32) (truncf .bf16 ws bitsLt_bf16_f32) (constant S2000x128 .f32 0x00000000#32)))
    (broadcastTo S2000x128 (shapeCast S1x128 bs shapeCasts_S128_S1x128) broadcasts_S1x128_S2000x128)

/-- The stored block is the ELU of that block, entry by entry. -/
theorem secondPayload_eq (x agg h : Vec Ideal S2000x128 .f32) (sc : Vec Ideal S2000x1 .f32) (ws : Vec Ideal S128x128 .f32)
    (bc bs : Vec Ideal S128 .f32) :
    k1_pay1 (F := Ideal) x agg h sc ws bc bs = fun i => elu (preActivation x agg h sc ws bc bs i) := rfl

/-- The block before the activation, at `(r, j)`. -/
theorem preActivation_apply (x agg h : Vec Ideal S2000x128 .f32) (sc : Vec Ideal S2000x1 .f32) (ws : Vec Ideal S128x128 .f32)
    (bc bs : Vec Ideal S128 .f32) (r : Fin 2000) (j : Fin 128) :
    preActivation x agg h sc ws bc bs (ix2 r j)
      = agg (ix2 r j) + sc (ix2 r (0 : Fin 1)) * h (ix2 r j) + bc (ix1 j) + rowCol x ws r j + bs (ix1 j) := by
  have e1 : shapeCast S2000x128 agg shapeCasts_S2000x128_S2000x128 = agg := shapeCast_self _ _
  have e2 : shapeCast S2000x128 h shapeCasts_S2000x128_S2000x128 = h := shapeCast_self _ _
  have e3 : shapeCast S2000x1 (shapeCast S2000x1 sc shapeCasts_S2000x1_S2000x1) shapeCasts_S2000x1_S2000x1 = sc :=
    (shapeCast_self _ _).trans (shapeCast_self _ _)
  have e4 : broadcastTo S2000x128 sc broadcasts_S2000x1_S2000x128 (ix2 r j) = sc (ix2 r (0 : Fin 1)) :=
    Cert.Keepdims.broadcastTo_a1_ab_apply sc broadcasts_S2000x1_S2000x128 r j
  have e5 : broadcastTo S2000x128 (shapeCast S1x128 bc shapeCasts_S128_S1x128) broadcasts_S1x128_S2000x128 (ix2 r j) = bc (ix1 j) :=
    (broadcastTo_1b_ab_apply _ broadcasts_S1x128_S2000x128 r j).trans (shapeCast_a_1a_apply bc shapeCasts_S128_S1x128 0 j)
  have e6 : broadcastTo S2000x128 (shapeCast S1x128 bs shapeCasts_S128_S1x128) broadcasts_S1x128_S2000x128 (ix2 r j) = bs (ix1 j) :=
    (broadcastTo_1b_ab_apply _ broadcasts_S1x128_S2000x128 r j).trans (shapeCast_a_1a_apply bs shapeCasts_S128_S1x128 0 j)
  have e7 := blockProduct_apply (truncf .bf16 x bitsLt_bf16_f32) (truncf .bf16 ws bitsLt_bf16_f32) r j
  unfold preActivation
  rw [e1, e2, e3]
  show agg (ix2 r j) + broadcastTo S2000x128 sc broadcasts_S2000x1_S2000x128 (ix2 r j) * h (ix2 r j)
      + broadcastTo S2000x128 (shapeCast S1x128 bc shapeCasts_S128_S1x128) broadcasts_S1x128_S2000x128 (ix2 r j)
      + matmul (F := Ideal) blockDot none (truncf .bf16 x bitsLt_bf16_f32) (truncf .bf16 ws bitsLt_bf16_f32) (constant S2000x128 .f32 0x00000000#32) (ix2 r j)
      + broadcastTo S2000x128 (shapeCast S1x128 bs shapeCasts_S128_S1x128) broadcasts_S1x128_S2000x128 (ix2 r j) = _
  rw [e4, e5, e6, e7]
  rfl

/-- What the second kernel stores, at `(r, j)`: the layer's entry from the block's ingredients. -/
theorem secondPayload_apply (x agg h : Vec Ideal S2000x128 .f32) (sc : Vec Ideal S2000x1 .f32) (ws : Vec Ideal S128x128 .f32)
    (bc bs : Vec Ideal S128 .f32) (r : Fin 2000) (j : Fin 128) :
    k1_pay1 (F := Ideal) x agg h sc ws bc bs (ix2 r j)
      = entry (agg (ix2 r j)) (sc (ix2 r (0 : Fin 1))) (h (ix2 r j)) (bc (ix1 j)) (rowCol x ws r j) (bs (ix1 j)) := by
  rw [secondPayload_eq]
  exact congrArg elu (preActivation_apply x agg h sc ws bc bs r j)

end Cert.GcnLayer

end
-- ==== Proof.FirstLaunch.lean ====
/-
  The first launch leaves `h = x W_conv` in its result array.

  The grid has 50 points; point `t` stages rows `2000 t … 2000 t + 1999` of `x` and the whole weight matrix,
  stores their product and writes it back to the same rows of the result. So every block written back is the
  block of ONE array, the product `x W_conv`, and the 50 blocks tile the 100000 rows: the result array ends
  holding the product.
-/
import proofs.«167708_j19980187861403_1_alg».proof.Proof.Gen.KernelIdeal.Frame
import proofs.«167708_j19980187861403_1_alg».proof.Proof.Spec
import proofs.«167708_j19980187861403_1_alg».proof.Proof.MatmulBlock
import Idealize.ShloMosaic.Lib.Pipeline.Value
import Idealize.ShloMosaic.Lib.StableHlo.Run

set_option maxRecDepth 16384

noncomputable section

namespace Cert.GcnLayer

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The printed index maps of the first launch, decided over its 50 points: the row windows sit at block row `t`,
    the weight window at the origin. -/
theorem firstIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- When the first launch starts, `x` and `W_conv` are as launched: the host operations before it write neither. -/
theorem firstEntry_x (c : Dev nD) : V1 m ρ c main_arg0 = m ((c : Thread nD τ).loc main_arg0) := by
  show StableHlo.after hostOps0 (W0 m ρ c) (Proc.devRef .tc main_arg0) = _
  after_results_simp

theorem firstEntry_w (c : Dev nD) : V1 m ρ c main_arg2 = m ((c : Thread nD τ).loc main_arg2) := by
  show StableHlo.after hostOps0 (W0 m ρ c) (Proc.devRef .tc main_arg2) = _
  after_results_simp

/-- The block of `x` staged at point `t` is rows `2000 t + r` of `x`. -/
theorem firstRows_apply (c : Dev nD) (t : Fin cfg0.N) (r : Fin 2000) (k : Fin 128) (hr : 2000 * t.val + r.val < 100000) :
    (iblk0 (V1 m ρ) c 0 t : Vec Ideal S2000x128 .f32) (ix2 r k)
      = (m ((c : Thread nD τ).loc main_arg0) : S100000x128.Idx → EReal) (ix2 ⟨2000 * t.val + r.val, hr⟩ k) := by
  obtain ⟨e0, e1, -⟩ := firstIndex t
  unfold iblk0
  rw [View.read_apply]
  show V1 m ρ c main_arg0 _ = _
  rw [firstEntry_x]
  congr 1
  funext a
  apply Fin.ext
  match a with
  | ⟨0, _⟩ => show win0_0.index t 0 * 2000 + 1 * r.val = 2000 * t.val + r.val; rw [e0]; omega
  | ⟨1, _⟩ => show win0_0.index t 1 * 128 + 1 * k.val = k.val; rw [e1]; omega

/-- The weight block staged at every point is the whole of `W_conv`. -/
theorem firstWeights_apply (c : Dev nD) (t : Fin cfg0.N) (k j : Fin 128) :
    (iblk0 (V1 m ρ) c 1 t : Vec Ideal S128x128 .f32) (ix2 k j)
      = (m ((c : Thread nD τ).loc main_arg2) : S128x128.Idx → EReal) (ix2 k j) := by
  obtain ⟨-, -, e0, e1, -⟩ := firstIndex t
  unfold iblk0
  rw [View.read_apply]
  show V1 m ρ c main_arg2 _ = _
  rw [firstEntry_w]
  congr 1
  funext a
  apply Fin.ext
  match a with
  | ⟨0, _⟩ => show win0_1.index t 0 * 128 + 1 * k.val = k.val; rw [e0]; omega
  | ⟨1, _⟩ => show win0_1.index t 1 * 128 + 1 * j.val = j.val; rw [e1]; omega

/-- What point `t` writes back is block `t` of the product `x W_conv`. -/
theorem firstFlushed (c : Dev nD) (t : Fin cfg0.N) :
    (dat0 (V1 m ρ) c).flushed 2 t = ((cfg0.win 2).blk t).view.read (Elt Ideal)
      (product (n := 100000) (m ((c : Thread nD τ).loc main_arg0)) (m ((c : Thread nD τ).loc main_arg2))) := by
  have hN : cfg0.N = 50 := N_0
  have ht : t.val < 50 := hN ▸ t.isLt
  obtain ⟨-, -, -, -, e0, e1⟩ := firstIndex t
  show (cfg0.win 2).cut (grid0.coords t) ((dat0 (V1 m ρ) c).after 2 t) = _
  rw [after0_2]
  unfold out0_2
  rw [View.canon_unit_zero zeroOffsets]
  simp only [View.ld_unit_zero (S := S2000x128) zeroOffsets, View.ld_unit_zero (S := S128x128) zeroOffsets]
  funext y
  obtain ⟨r, j, rfl⟩ : ∃ (r : Fin 2000) (j : Fin 128), y = ix2 r j := ⟨y 0, y 1, eq_ix2 y⟩
  have hr : 2000 * t.val + r.val < 100000 := by have := r.isLt; omega
  have hemb : ((cfg0.win 2).blk t).view.emb (ix2 r j) = (ix2 ⟨2000 * t.val + r.val, hr⟩ j : S100000x128.Idx) := by
    funext a
    apply Fin.ext
    match a with
    | ⟨0, _⟩ => show win0_2.index t 0 * 2000 + 1 * r.val = 2000 * t.val + r.val; rw [e0]; omega
    | ⟨1, _⟩ => show win0_2.index t 1 * 128 + 1 * j.val = j.val; rw [e1]; omega
  show k0_pay1 (F := Ideal) (iblk0 (V1 m ρ) c 0 t) (iblk0 (V1 m ρ) c 1 t) (ix2 r j)
    = product (n := 100000) (m ((c : Thread nD τ).loc main_arg0)) (m ((c : Thread nD τ).loc main_arg2)) (((cfg0.win 2).blk t).view.emb (ix2 r j))
  rw [hemb, product_ix2]
  refine (firstPayload_apply (iblk0 (V1 m ρ) c 0 t) (iblk0 (V1 m ρ) c 1 t) r j).trans ?_
  unfold rowCol
  refine Finset.sum_congr rfl fun k _ => ?_
  rw [firstRows_apply m ρ c t r k hr, firstWeights_apply m ρ c t k j]

/-- An index of the result is in point `t`'s block iff each coordinate is in the block's range on its axis. -/
theorem firstMem (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v35).slice (win0_2.rect t)).set ↔ _
  rw [View.set_slice_whole, Rect.mem_set_unit]
  exact Iff.rfl

/-- The 50 blocks tile the result: row `R` is in the block of point `R / 2000`. -/
theorem firstCover (i : S100000x128.Idx) :
    ∃ t : Fin cfg0.N, (cfg0.win 2).flush t = true ∧ i ∈ ((cfg0.win 2).blk t).view.set := by
  have hN : cfg0.N = 50 := N_0
  have hi0 : (i 0).val < 100000 := (i 0).isLt
  have hi1 : (i 1).val < 128 := (i 1).isLt
  let t : Fin cfg0.N := ⟨(i 0).val / 2000, by rw [hN]; omega⟩
  obtain ⟨-, -, -, -, e0, e1⟩ := firstIndex t
  have e0' : win0_2.index t (0 : Fin 2) = (i 0).val / 2000 := e0
  refine ⟨t, flush0_2 t, ?_⟩
  rw [firstMem]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the first launch its result array holds `x W_conv`. -/
theorem firstResult (c : Dev nD) :
    (dat0 (V1 m ρ) c).arrAt 2 cfg0.N
      = product (n := 100000) (m ((c : Thread nD τ).loc main_arg0)) (m ((c : Thread nD τ).loc main_arg2)) :=
  (dat0 (V1 m ρ) c).arrAt_eq_of_cover 2 _ (fun t _ => firstFlushed m ρ c t) firstCover

end Cert.GcnLayer

end
-- ==== Proof.RefValue.lean ====
/-
  The reference computes the layer.

  Its last operation is the select of the ELU; reading the operations one at a time from there down to the arrays
  they are applied to leaves, at entry `(r, j)`,
      elu ( agg[r,j] + scale[r] * h[r,j] + b_conv[j] + (x W_skip)[r,j] + b_skip[j] )
  with `h = x W_conv` and `x W_skip` the host's two matrix products, each a plain sum on the extended reals,
  `scale` the host's `2 * dinv * dinv`, and `agg` the host's scatter-add of the weighted gathered rows of `h`.
  The scatter-add, the gathers and the degree computation are not opened: `messages h e` names the chain from `h`
  and the edge list to `agg`, and the kernel program applies the same chain.
-/
import proofs.«167708_j19980187861403_1_alg».proof.Proof.Gen.ReferenceIdeal.Read
import proofs.«167708_j19980187861403_1_alg».proof.Proof.Spec
import Idealize.ShloMosaic.Lib.ValueIdx

noncomputable section

namespace Cert.GcnLayer

open Cert.ReferenceIdeal Cert.ReferenceIdeal.Gen Cert.ReferenceIdeal.Read Idealize.ShloMosaic Idealize.ShloMosaic.ValueIdx

/-- The aggregated messages from `h` and the edge list `e`: the rows of `h` at the edges' sources, each scaled by
    its edge's weight `dinv[src] * dinv[dst]`, scatter-added at the edges' destinations into a zero array. -/
def messages (h : FVec Ideal S100000x128 .f32) (e : IVec S2x1600000 32) : FVec Ideal S100000x128 .f32 :=
  Host.scatterAdd (F := Ideal) (φ := .f32) scatter_S100000x128_S1600000x1_S1600000x128_1_0_0_1 (val_main_v42 (F := Ideal)) (val_main_v43 (F := Ideal) e)
    (mulf (F := Ideal) (φ := .f32) (val_main_v40 (F := Ideal) e)
      (Host.gather (α := Ideal .f32) gather_S100000x128_S1600000x1_S1600000x128_1_0_n_n_0_1_1128 h (val_main_v38 (F := Ideal) e)))

/-- The self-loop weights `2 * dinv * dinv` from the edge list. -/
def selfWeights (e : IVec S2x1600000 32) : FVec Ideal S100000 .f32 :=
  val_main_v47 (F := Ideal) e

/-- The host's first matrix product is the plain product. -/
theorem hostProduct (x0 : (⟨S100000x128, .f32⟩ : BufTy).Contents (Elt Ideal)) (x2 : (⟨S128x128, .f32⟩ : BufTy).Contents (Elt Ideal)) :
    val_main_v31 (F := Ideal) x0 x2 = product (n := 100000) x0 x2 := by
  funext i
  obtain ⟨r, j, rfl⟩ : ∃ (r : Fin 100000) (j : Fin 128), i = ix2 r j := ⟨i 0, i 1, eq_ix2 i⟩
  rw [val_main_v31_apply, product_ix2]
  unfold rowCol
  refine Finset.sum_congr rfl fun k _ => ?_
  have el : lidx_main_v31 (ix2 r j) k = ix2 r k := funext fun a => by
    match a with
    | ⟨0, _⟩ => rfl
    | ⟨1, _⟩ => rfl
  have er : ridx_main_v31 (ix2 r j) k = ix2 k j := funext fun a => by
    match a with
    | ⟨0, _⟩ => rfl
    | ⟨1, _⟩ => rfl
  rw [el, er]

/-- The host's aggregated messages are `messages` of the host's `h`. -/
theorem hostMessages (x0 : (⟨S100000x128, .f32⟩ : BufTy).Contents (Elt Ideal)) (e : (⟨S2x1600000, .i32⟩ : BufTy).Contents (Elt Ideal))
    (x2 : (⟨S128x128, .f32⟩ : BufTy).Contents (Elt Ideal)) :
    val_main_v44 (F := Ideal) x0 e x2 = messages (val_main_v31 (F := Ideal) x0 x2) e := by
  unfold val_main_v44 val_main_v41 val_main_v39 messages
  rfl

/-- The reference's result is the layer of `messages (x W_conv)`, `x W_conv`, the self-loop weights, `x`, the skip
    weights and the two biases. -/
theorem reference_layer (x0 : (⟨S100000x128, .f32⟩ : BufTy).Contents (Elt Ideal)) (e : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v67 (F := Ideal) x0 e x2 x3 x4 x5
      = layer (n := 100000) (messages (product (n := 100000) x0 x2) e) (product (n := 100000) x0 x2) (selfWeights e) x0 x4 x3 x5 := by
  funext i
  obtain ⟨r, j, rfl⟩ : ∃ (r : Fin 100000) (j : Fin 128), i = ix2 r j := ⟨i 0, i 1, eq_ix2 i⟩
  have i1 : idx_main_v48 (idx_main_v49 (ix2 r j)) = ix1 r := funext fun a => by
    match a with
    | ⟨0, _⟩ => rfl
  have i2 : idx_main_v52 (idx_main_v53 (ix2 r j)) = ix1 j := funext fun a => by
    match a with
    | ⟨0, _⟩ => rfl
  have i3 : idx_main_v57 (idx_main_v58 (ix2 r j)) = ix1 j := funext fun a => by
    match a with
    | ⟨0, _⟩ => rfl
  have i4 : ∀ k : Fin 128, lidx_main_v55 (ix2 r j) k = ix2 r k := fun k => funext fun a => by
    match a with
    | ⟨0, _⟩ => rfl
    | ⟨1, _⟩ => rfl
  have i5 : ∀ k : Fin 128, ridx_main_v55 (ix2 r j) k = ix2 k j := fun k => funext fun a => by
    match a with
    | ⟨0, _⟩ => rfl
    | ⟨1, _⟩ => rfl
  rw [layer_ix2, val_main_v67_apply, val_main_v61_apply, val_main_v66_apply, val_main_v64_apply, val_main_v62_apply,
    val_main_v59_apply, val_main_v56_apply, val_main_v54_apply, val_main_v51_apply, val_main_v50_apply, val_main_v49_apply,
    val_main_v48_apply, val_main_v53_apply, val_main_v52_apply, val_main_v58_apply, val_main_v57_apply, val_main_v55_apply,
    val_main_v60_apply, val_main_cst_11_apply, val_main_v63_apply, val_main_cst_12_apply, val_main_v65_apply,
    val_main_cst_13_apply, hostMessages, hostProduct, i1, i2, i3]
  unfold entry elu rowCol selfWeights
  simp only [i4, i5, Ideal.ofBits_def, Ideal.addf_def, Ideal.subf_def, Ideal.mulf_def, Ideal.hostUnary_exp_def]

end Cert.GcnLayer

end
-- ==== Proof.Between.lean ====
/-
  What the second launch finds in its operands.

  Between the two launches the program runs the host operations that gather the rows of `h` at the edges' sources,
  scale them by the edges' weights and scatter-add them at the destinations; before the first launch it has already
  computed the degrees, their inverse square roots, the edges' weights and the self-loop column. These are, operation
  for operation, the reference's own host operations, applied here to the first launch's result array where the
  reference applies them to its host matrix product. So the second launch finds: `x`, the skip weights and the biases
  as launched; in `h`'s array the product `x W_conv` (the first launch's result); in the aggregate's array
  `messages (x W_conv) e`; and in the self-loop column the vector `2 * dinv * dinv` cast to a column.
-/
import proofs.«167708_j19980187861403_1_alg».proof.Proof.Gen.KernelIdeal.Frame
import proofs.«167708_j19980187861403_1_alg».proof.Proof.Gen.ReferenceIdeal.Read
import proofs.«167708_j19980187861403_1_alg».proof.Proof.Spec
import proofs.«167708_j19980187861403_1_alg».proof.Proof.RefValue
import proofs.«167708_j19980187861403_1_alg».proof.Proof.FirstLaunch
import Idealize.ShloMosaic.Lib.Pipeline.Value
import Idealize.ShloMosaic.Lib.StableHlo.Run

set_option maxRecDepth 16384

noncomputable section

namespace Cert.GcnLayer

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arguments are as launched -/

theorem secondEntry_x (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)

theorem secondEntry_ws (c : Dev nD) : V3 m ρ c main_arg4 = m ((c : Thread nD τ).loc main_arg4) :=
  ((W4_arr m ρ c 4).trans (((dat1 (V3 m ρ) c).arrAt_in 4 rfl _).trans (A_eq1 (V3 m ρ) c 4))).symm.trans (W4_main_arg4 m ρ c)

theorem secondEntry_bc (c : Dev nD) : V3 m ρ c main_arg3 = m ((c : Thread nD τ).loc main_arg3) :=
  ((W4_arr m ρ c 5).trans (((dat1 (V3 m ρ) c).arrAt_in 5 rfl _).trans (A_eq1 (V3 m ρ) c 5))).symm.trans (W4_main_arg3 m ρ c)

theorem secondEntry_bs (c : Dev nD) : V3 m ρ c main_arg5 = m ((c : Thread nD τ).loc main_arg5) :=
  ((W4_arr m ρ c 6).trans (((dat1 (V3 m ρ) c).arrAt_in 6 rfl _).trans (A_eq1 (V3 m ρ) c 6))).symm.trans (W4_main_arg5 m ρ c)

/-! ## What the host computed before the first launch, as the reference's stages of the edge list -/

/-- The edges' destinations. -/
theorem exit_dst (c : Dev nD) :
    W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp
  rfl

/-- The edges' sources. -/
theorem exit_src (c : Dev nD) :
    W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp
  rfl

/-- The edges' weights `dinv[src] * dinv[dst]`. -/
theorem exit_weights (c : Dev nD) :
    W2 m ρ c (Proc.devRef .tc main_v30) = Cert.ReferenceIdeal.Read.val_main_v30 (F := Ideal) (m ((c : Thread nD τ).loc main_arg1)) := by
  rw [W2_of_ne m ρ c main_v30 (by decide)]
  show StableHlo.after hostOps0 (W0 m ρ c) (Proc.devRef .tc main_v30) = _
  after_results_simp
  rfl

/-- The first launch's result: `x W_conv`. -/
theorem exit_h (c : Dev nD) :
    W2 m ρ c (Proc.devRef .tc main_v35)
      = product (n := 100000) (m ((c : Thread nD τ).loc main_arg0)) (m ((c : Thread nD τ).loc main_arg2)) :=
  (W2_arr m ρ c 2).trans (firstResult m ρ c)

/-! ## The second launch's operands that the host or the first launch wrote -/

/-- `h`'s array holds `x W_conv`: no host operation between the launches writes it. -/
theorem secondEntry_h (c : Dev nD) :
    V3 m ρ c main_v35
      = product (n := 100000) (m ((c : Thread nD τ).loc main_arg0)) (m ((c : Thread nD τ).loc main_arg2)) := by
  show StableHlo.after hostOps1 (W2 m ρ c) (Proc.devRef .tc main_v35) = _
  after_results_simp
  exact exit_h m ρ c

/-- The self-loop column holds `2 * dinv * dinv` cast to a column. -/
theorem secondEntry_scale (c : Dev nD) :
    V3 m ρ c main_v34
      = shapeCast S100000x1 (selfWeights (m ((c : Thread nD τ).loc main_arg1))) shapeCasts_S100000_S100000x1 := by
  show StableHlo.after hostOps1 (W2 m ρ c) (Proc.devRef .tc main_v34) = _
  after_results_simp
  rw [W2_of_ne m ρ c main_v34 (by decide)]
  show StableHlo.after hostOps0 (W0 m ρ c) (Proc.devRef .tc main_v34) = _
  after_results_simp
  rfl

/-- The aggregate's array holds the messages of `x W_conv` along the edge list. -/
theorem secondEntry_agg (c : Dev nD) :
    V3 m ρ c main_v48
      = messages (product (n := 100000) (m ((c : Thread nD τ).loc main_arg0)) (m ((c : Thread nD τ).loc main_arg2)))
          (m ((c : Thread nD τ).loc main_arg1)) := by
  show StableHlo.after hostOps1 (W2 m ρ c) (Proc.devRef .tc main_v48) = _
  after_results_simp
  rw [exit_dst, exit_src, exit_weights, exit_h]
  rfl

end Cert.GcnLayer

end
-- ==== Proof.SecondLaunch.lean ====
/-
  The second launch leaves the layer's output in the result array.

  Again 50 points; point `t` stages rows `2000 t … 2000 t + 1999` of `x`, of the aggregate, of `h` and of the
  self-loop column, and the whole skip weights and biases; it stores the ELU of their combination and writes it
  back to the same rows of the result. With the operands as `Between` finds them every block written back is the
  block of ONE array, `layer …`, and the blocks tile the rows.
-/
import proofs.«167708_j19980187861403_1_alg».proof.Proof.Gen.KernelIdeal.Frame
import proofs.«167708_j19980187861403_1_alg».proof.Proof.Spec
import proofs.«167708_j19980187861403_1_alg».proof.Proof.CombineBlock
import proofs.«167708_j19980187861403_1_alg».proof.Proof.FirstLaunch
import proofs.«167708_j19980187861403_1_alg».proof.Proof.Between
import proofs.«167708_j19980187861403_1_alg».proof.Proof.LibKeepdims
import Idealize.ShloMosaic.Lib.Pipeline.Value

set_option maxRecDepth 16384

noncomputable section

namespace Cert.GcnLayer

open Cert.KernelIdeal Cert.KernelIdeal.Gen Idealize.ShloMosaic Idealize.ShloMosaic.TcCoe Idealize.SL.Sem
open Idealize.ShloMosaic.ValueIdx
open Idealize.ShloMosaic.Pipeline (Dat)

theorem zeroOffset : (![0] : Fin 1 → Nat) = fun _ => 0 := funext fun a => by fin_cases a; rfl

/-- The printed index maps of the second launch, decided over its 50 points: the four row windows and the result sit
    at block row `t`, the weights and the biases at the origin. -/
theorem secondIndex : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 1) = 0 ∧ win1_6.index t (0 : Fin 1) = 0
    ∧ win1_7.index t (0 : Fin 2) = t.val ∧ win1_7.index t (1 : Fin 2) = 0 :=
  (by decide +kernel : ∀ t : Fin grid1.N, _)

section Blocks

/-! ## Each staged block as entries of its array, whatever the arrays hold when the launch starts -/

variable (V : (c : Dev nD) → (b : Ref sig .tc) → Buf (Elt Ideal) ((c : Thread nD τ).loc b))

/-- The block of `x` staged at point `t` is its rows `2000 t + r`. -/
theorem secondRows0_apply (c : Dev nD) (t : Fin cfg1.N) (r : Fin 2000) (k : Fin 128) (hr : 2000 * t.val + r.val < 100000) :
    (iblk1 V c 0 t : Vec Ideal S2000x128 .f32) (ix2 r k)
      = (V c main_arg0 : S100000x128.Idx → EReal) (ix2 ⟨2000 * t.val + r.val, hr⟩ k) := by
  have e0 : win1_0.index t (0 : Fin 2) = t.val := (secondIndex t).1
  have e1 : win1_0.index t (1 : Fin 2) = 0 := (secondIndex t).2.1
  unfold iblk1
  rw [View.read_apply]
  show V c main_arg0 _ = _
  congr 1
  funext a
  apply Fin.ext
  match a with
  | ⟨0, _⟩ => show win1_0.index t 0 * 2000 + 1 * r.val = 2000 * t.val + r.val; rw [e0]; omega
  | ⟨1, _⟩ => show win1_0.index t 1 * 128 + 1 * k.val = k.val; rw [e1]; omega

/-- The block of the aggregate staged at point `t` is its rows `2000 t + r`. -/
theorem secondRows1_apply (c : Dev nD) (t : Fin cfg1.N) (r : Fin 2000) (k : Fin 128) (hr : 2000 * t.val + r.val < 100000) :
    (iblk1 V c 1 t : Vec Ideal S2000x128 .f32) (ix2 r k)
      = (V c main_v48 : S100000x128.Idx → EReal) (ix2 ⟨2000 * t.val + r.val, hr⟩ k) := by
  have e0 : win1_1.index t (0 : Fin 2) = t.val := (secondIndex t).2.2.1
  have e1 : win1_1.index t (1 : Fin 2) = 0 := (secondIndex t).2.2.2.1
  unfold iblk1
  rw [View.read_apply]
  show V c main_v48 _ = _
  congr 1
  funext a
  apply Fin.ext
  match a with
  | ⟨0, _⟩ => show win1_1.index t 0 * 2000 + 1 * r.val = 2000 * t.val + r.val; rw [e0]; omega
  | ⟨1, _⟩ => show win1_1.index t 1 * 128 + 1 * k.val = k.val; rw [e1]; omega

/-- The block of `h` staged at point `t` is its rows `2000 t + r`. -/
theorem secondRows2_apply (c : Dev nD) (t : Fin cfg1.N) (r : Fin 2000) (k : Fin 128) (hr : 2000 * t.val + r.val < 100000) :
    (iblk1 V c 2 t : Vec Ideal S2000x128 .f32) (ix2 r k)
      = (V c main_v35 : S100000x128.Idx → EReal) (ix2 ⟨2000 * t.val + r.val, hr⟩ k) := by
  have e0 : win1_2.index t (0 : Fin 2) = t.val := (secondIndex t).2.2.2.2.1
  have e1 : win1_2.index t (1 : Fin 2) = 0 := (secondIndex t).2.2.2.2.2.1
  unfold iblk1
  rw [View.read_apply]
  show V c main_v35 _ = _
  congr 1
  funext a
  apply Fin.ext
  match a with
  | ⟨0, _⟩ => show win1_2.index t 0 * 2000 + 1 * r.val = 2000 * t.val + r.val; rw [e0]; omega
  | ⟨1, _⟩ => show win1_2.index t 1 * 128 + 1 * k.val = k.val; rw [e1]; omega

/-- The block of the self-loop column staged at point `t` is its rows `2000 t + r`. -/
theorem secondColumn_apply (c : Dev nD) (t : Fin cfg1.N) (r : Fin 2000) (hr : 2000 * t.val + r.val < 100000) :
    (iblk1 V c 3 t : Vec Ideal S2000x1 .f32) (ix2 r (0 : Fin 1))
      = (V c main_v34 : S100000x1.Idx → EReal) (ix2 ⟨2000 * t.val + r.val, hr⟩ (0 : Fin 1)) := by
  have e0 : win1_3.index t (0 : Fin 2) = t.val := (secondIndex t).2.2.2.2.2.2.1
  have e1 : win1_3.index t (1 : Fin 2) = 0 := (secondIndex t).2.2.2.2.2.2.2.1
  unfold iblk1
  rw [View.read_apply]
  show V c main_v34 _ = _
  congr 1
  funext a
  apply Fin.ext
  match a with
  | ⟨0, _⟩ => show win1_3.index t 0 * 2000 + 1 * r.val = 2000 * t.val + r.val; rw [e0]; omega
  | ⟨1, _⟩ => show win1_3.index t 1 * 1 + 1 * 0 = 0; rw [e1]

/-- The skip weights staged at every point are the whole matrix. -/
theorem secondWeights_apply (c : Dev nD) (t : Fin cfg1.N) (k j : Fin 128) :
    (iblk1 V c 4 t : Vec Ideal S128x128 .f32) (ix2 k j) = (V c main_arg4 : S128x128.Idx → EReal) (ix2 k j) := by
  have e0 : win1_4.index t (0 : Fin 2) = 0 := (secondIndex t).2.2.2.2.2.2.2.2.1
  have e1 : win1_4.index t (1 : Fin 2) = 0 := (secondIndex t).2.2.2.2.2.2.2.2.2.1
  unfold iblk1
  rw [View.read_apply]
  show V c main_arg4 _ = _
  congr 1
  funext a
  apply Fin.ext
  match a with
  | ⟨0, _⟩ => show win1_4.index t 0 * 128 + 1 * k.val = k.val; rw [e0]; omega
  | ⟨1, _⟩ => show win1_4.index t 1 * 128 + 1 * j.val = j.val; rw [e1]; omega

/-- The first bias staged at every point is the whole vector. -/
theorem secondBiasConv_apply (c : Dev nD) (t : Fin cfg1.N) (j : Fin 128) :
    (iblk1 V c 5 t : Vec Ideal S128 .f32) (ix1 j) = (V c main_arg3 : S128.Idx → EReal) (ix1 j) := by
  have e0 : win1_5.index t (0 : Fin 1) = 0 := (secondIndex t).2.2.2.2.2.2.2.2.2.2.1
  unfold iblk1
  rw [View.read_apply]
  show V c main_arg3 _ = _
  congr 1
  funext a
  apply Fin.ext
  match a with
  | ⟨0, _⟩ => show win1_5.index t 0 * 128 + 1 * j.val = j.val; rw [e0]; omega

/-- The second bias staged at every point is the whole vector. -/
theorem secondBiasSkip_apply (c : Dev nD) (t : Fin cfg1.N) (j : Fin 128) :
    (iblk1 V c 6 t : Vec Ideal S128 .f32) (ix1 j) = (V c main_arg5 : S128.Idx → EReal) (ix1 j) := by
  have e0 : win1_6.index t (0 : Fin 1) = 0 := (secondIndex t).2.2.2.2.2.2.2.2.2.2.2.1
  unfold iblk1
  rw [View.read_apply]
  show V c main_arg5 _ = _
  congr 1
  funext a
  apply Fin.ext
  match a with
  | ⟨0, _⟩ => show win1_6.index t 0 * 128 + 1 * j.val = j.val; rw [e0]; omega

end Blocks

variable (m : (ℓ : Loc nD τ sig) → Buf (Elt Ideal) ℓ) (ρ : Dev nD → PrngReg)

/-- The array the second launch fills: the layer of the operands as the launch finds them. -/
def output (c : Dev nD) : S100000x128.Idx → EReal :=
  layer (n := 100000)
    (messages (product (n := 100000) (m ((c : Thread nD τ).loc main_arg0)) (m ((c : Thread nD τ).loc main_arg2))) (m ((c : Thread nD τ).loc main_arg1)))
    (product (n := 100000) (m ((c : Thread nD τ).loc main_arg0)) (m ((c : Thread nD τ).loc main_arg2)))
    (selfWeights (m ((c : Thread nD τ).loc main_arg1)))
    (m ((c : Thread nD τ).loc main_arg0)) (m ((c : Thread nD τ).loc main_arg4))
    (m ((c : Thread nD τ).loc main_arg3)) (m ((c : Thread nD τ).loc main_arg5))

theorem output_eq (c : Dev nD) : output m c = layer (n := 100000)
    (messages (product (n := 100000) (m ((c : Thread nD τ).loc main_arg0)) (m ((c : Thread nD τ).loc main_arg2))) (m ((c : Thread nD τ).loc main_arg1)))
    (product (n := 100000) (m ((c : Thread nD τ).loc main_arg0)) (m ((c : Thread nD τ).loc main_arg2)))
    (selfWeights (m ((c : Thread nD τ).loc main_arg1)))
    (m ((c : Thread nD τ).loc main_arg0)) (m ((c : Thread nD τ).loc main_arg4))
    (m ((c : Thread nD τ).loc main_arg3)) (m ((c : Thread nD τ).loc main_arg5)) := rfl

/-- The entry of the output at row `R`, column `j`. -/
theorem output_ix2 (c : Dev nD) (R : Fin 100000) (j : Fin 128) :
    output m c (ix2 R j)
      = entry (messages (product (n := 100000) (m ((c : Thread nD τ).loc main_arg0)) (m ((c : Thread nD τ).loc main_arg2))) (m ((c : Thread nD τ).loc main_arg1)) (ix2 R j))
          (selfWeights (m ((c : Thread nD τ).loc main_arg1)) (ix1 R))
          (product (n := 100000) (m ((c : Thread nD τ).loc main_arg0)) (m ((c : Thread nD τ).loc main_arg2)) (ix2 R j))
          ((m ((c : Thread nD τ).loc main_arg3) : S128.Idx → EReal) (ix1 j))
          (rowCol (n := 100000) (m ((c : Thread nD τ).loc main_arg0)) (m ((c : Thread nD τ).loc main_arg4)) R j)
          ((m ((c : Thread nD τ).loc main_arg5) : S128.Idx → EReal) (ix1 j)) := by
  rw [output_eq, layer_ix2]

/-- What the body stores at `(r, j)` of point `t`'s block is the output's entry at row `2000 t + r`. -/
theorem secondStored (c : Dev nD) (t : Fin cfg1.N) (r : Fin 2000) (j : Fin 128) (hr : 2000 * t.val + r.val < 100000) :
    k1_pay1 (F := Ideal) (iblk1 (V3 m ρ) c 0 t) (iblk1 (V3 m ρ) c 1 t) (iblk1 (V3 m ρ) c 2 t) (iblk1 (V3 m ρ) c 3 t)
        (iblk1 (V3 m ρ) c 4 t) (iblk1 (V3 m ρ) c 5 t) (iblk1 (V3 m ρ) c 6 t) (ix2 r j)
      = output m c (ix2 ⟨2000 * t.val + r.val, hr⟩ j) := by
  refine (secondPayload_apply (iblk1 (V3 m ρ) c 0 t) (iblk1 (V3 m ρ) c 1 t) (iblk1 (V3 m ρ) c 2 t) (iblk1 (V3 m ρ) c 3 t)
      (iblk1 (V3 m ρ) c 4 t) (iblk1 (V3 m ρ) c 5 t) (iblk1 (V3 m ρ) c 6 t) r j).trans ?_
  have hrow : rowCol (iblk1 (V3 m ρ) c 0 t : Vec Ideal S2000x128 .f32) (iblk1 (V3 m ρ) c 4 t : Vec Ideal S128x128 .f32) r j
      = rowCol (n := 100000) (m ((c : Thread nD τ).loc main_arg0)) (m ((c : Thread nD τ).loc main_arg4)) ⟨2000 * t.val + r.val, hr⟩ j := by
    unfold rowCol
    refine Finset.sum_congr rfl fun k _ => ?_
    rw [secondRows0_apply (V3 m ρ) c t r k hr, secondWeights_apply (V3 m ρ) c t k j, secondEntry_x, secondEntry_ws]
  rw [output_ix2, hrow, secondRows1_apply (V3 m ρ) c t r j hr, secondRows2_apply (V3 m ρ) c t r j hr, secondColumn_apply (V3 m ρ) c t r hr,
    secondBiasConv_apply (V3 m ρ) c t j, secondBiasSkip_apply (V3 m ρ) c t j,
    secondEntry_agg, secondEntry_h, secondEntry_scale, secondEntry_bc, secondEntry_bs,
    Cert.Keepdims.shapeCast_a_a1_apply]

/-- A block whose entry `(r, j)` is entry `(2000 t + r, j)` of an array `G` is, written back at point `t`, the
    block of `G` there. -/
theorem rowsBlock_eq_read (t : Fin cfg1.N) (K : Vec Ideal S2000x128 .f32) (G : S100000x128.Idx → EReal)
    (hK : ∀ (r : Fin 2000) (j : Fin 128) (hr : 2000 * t.val + r.val < 100000), K (ix2 r j) = G (ix2 ⟨2000 * t.val + r.val, hr⟩ j)) :
    (cfg1.win 7).cut (grid1.coords t) K = ((cfg1.win 7).blk t).view.read (Elt Ideal) G := by
  have hN : cfg1.N = 50 := N_1
  have ht : t.val < 50 := hN ▸ t.isLt
  have e0 : win1_7.index t (0 : Fin 2) = t.val := (secondIndex t).2.2.2.2.2.2.2.2.2.2.2.2.1
  have e1 : win1_7.index t (1 : Fin 2) = 0 := (secondIndex t).2.2.2.2.2.2.2.2.2.2.2.2.2
  funext y
  obtain ⟨r, j, rfl⟩ : ∃ (r : Fin 2000) (j : Fin 128), y = ix2 r j := ⟨y 0, y 1, eq_ix2 y⟩
  have hr : 2000 * t.val + r.val < 100000 := by have := r.isLt; omega
  have hemb : ((cfg1.win 7).blk t).view.emb (ix2 r j) = (ix2 ⟨2000 * t.val + r.val, hr⟩ j : S100000x128.Idx) := by
    funext a
    apply Fin.ext
    match a with
    | ⟨0, _⟩ => show win1_7.index t 0 * 2000 + 1 * r.val = 2000 * t.val + r.val; rw [e0]; omega
    | ⟨1, _⟩ => show win1_7.index t 1 * 128 + 1 * j.val = j.val; rw [e1]; omega
  show K (ix2 r j) = G (((cfg1.win 7).blk t).view.emb (ix2 r j))
  rw [hemb]
  exact hK r j hr

/-- What point `t` writes back is block `t` of the layer's output. -/
theorem secondFlushed (c : Dev nD) (t : Fin cfg1.N) :
    (dat1 (V3 m ρ) c).flushed 7 t = ((cfg1.win 7).blk t).view.read (Elt Ideal) (output m c) := by
  show (cfg1.win 7).cut (grid1.coords t) ((dat1 (V3 m ρ) c).after 7 t) = _
  rw [after1_7]
  unfold out1_7
  rw [View.canon_unit_zero zeroOffsets]
  simp only [View.ld_unit_zero (S := S2000x128) zeroOffsets, View.ld_unit_zero (S := S2000x1) zeroOffsets,
    View.ld_unit_zero (S := S128x128) zeroOffsets, View.ld_unit_zero (S := S128) zeroOffset]
  exact rowsBlock_eq_read t _ (output m c) (fun r j hr => secondStored m ρ c t r j hr)

/-- An index of the result is in point `t`'s block iff each coordinate is in the block's range on its axis. -/
theorem secondMem (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v49).slice (win1_7.rect t)).set ↔ _
  rw [View.set_slice_whole, Rect.mem_set_unit]
  exact Iff.rfl

/-- The 50 blocks tile the result: row `R` is in the block of point `R / 2000`. -/
theorem secondCover (i : S100000x128.Idx) :
    ∃ t : Fin cfg1.N, (cfg1.win 7).flush t = true ∧ i ∈ ((cfg1.win 7).blk t).view.set := by
  have hN : cfg1.N = 50 := N_1
  have hi0 : (i 0).val < 100000 := (i 0).isLt
  have hi1 : (i 1).val < 128 := (i 1).isLt
  let t : Fin cfg1.N := ⟨(i 0).val / 2000, by rw [hN]; omega⟩
  have e0 : win1_7.index t (0 : Fin 2) = (i 0).val / 2000 := (secondIndex t).2.2.2.2.2.2.2.2.2.2.2.2.1
  have e1 : win1_7.index t (1 : Fin 2) = 0 := (secondIndex t).2.2.2.2.2.2.2.2.2.2.2.2.2
  refine ⟨t, flush1_7 t, ?_⟩
  rw [secondMem]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- After the second launch its result array holds the layer's output. -/
theorem secondResult (c : Dev nD) : (dat1 (V3 m ρ) c).arrAt 7 cfg1.N = output m c :=
  (dat1 (V3 m ρ) c).arrAt_eq_of_cover 7 _ (fun t _ => secondFlushed m ρ c t) secondCover

end Cert.GcnLayer

end
-- ==== Proof.lean ====
/-
  A graph-convolution layer (improved self-loops, symmetric normalisation) with a skip projection and an ELU, as two
  grid launches among host operations, against its plain array-program reference: the two compute the same array
  on the extended reals.

  Both programs compute, from the edge list alone and by the same host operations, the degrees, their inverse
  square roots `dinv`, the edges' weights `dinv[src] * dinv[dst]` and the self-loop weights `2 * dinv * dinv`.
  The kernel program's first launch forms `h = x W_conv` in blocks of 2000 rows on the matrix unit; its host
  operations then gather, weight and scatter-add the rows of `h` into the aggregate exactly as the reference
  does with its own `h`; its second launch, again in blocks of 2000 rows, forms
      elu ( agg + scale * h + b_conv + x W_skip + b_skip )
  with the sum in the reference's order. On the extended reals the rounding to bf16 before the matrix unit is the
  identity and a block product into a zero accumulator is the plain sum over the shared axis, which is also what
  the host's matrix product is; everything else is the same operation on both sides. So no algebraic law is
  needed and the finiteness of the inputs is never used.

  `Spec` states the layer entry by entry; `MatmulBlock` and `CombineBlock` read what the two kernel bodies store at
  an entry; `FirstLaunch` and `SecondLaunch` go from blocks to whole arrays; `Between` follows the buffers through the
  host operations around and between the launches; `NamedRun` is the kernel program's run with its result named;
  `RefValue` reads the reference's result down to the same entries.
-/
import proofs.«167708_j19980187861403_1_alg».proof.Defs
import proofs.«167708_j19980187861403_1_alg».proof.Proof.Gen.Kernel
import proofs.«167708_j19980187861403_1_alg».proof.Proof.Gen.Kernel.Frame
import proofs.«167708_j19980187861403_1_alg».proof.Proof.Gen.KernelIdeal
import proofs.«167708_j19980187861403_1_alg».proof.Proof.Gen.KernelIdeal.Frame
import proofs.«167708_j19980187861403_1_alg».proof.Proof.Gen.ReferenceIdeal
import proofs.«167708_j19980187861403_1_alg».proof.Proof.Gen.Pre_finite_inputs
import proofs.«167708_j19980187861403_1_alg».proof.Proof.Gen.ReferenceIdeal.Run
import proofs.«167708_j19980187861403_1_alg».proof.Proof.Gen.ReferenceIdeal.Read
import proofs.«167708_j19980187861403_1_alg».proof.Proof.NamedRun
import proofs.«167708_j19980187861403_1_alg».proof.Proof.SecondLaunch
import proofs.«167708_j19980187861403_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- The kernel program's run: the result array ends holding the layer's output, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v49) = Cert.GcnLayer.output m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun r h c => ⟨(h c).1.trans ((Cert.KernelIdeal.Gen.W4_arr m ρ c 7).trans (Cert.GcnLayer.secondResult m ρ c)), (h c).2⟩)
    (Cert.GcnLayer.run_named m ρ)

/-- From memories agreeing on the arguments both programs end with the layer's output of those arguments. -/
theorem algebraic : Cert.algebraic_KernelIdeal_ReferenceIdeal := by
  intro m ρ m' ρ' _ hagree
  refine ⟨fun c => Cert.GcnLayer.output m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.GcnLayer.reference_layer, (hagree c).1, (hagree c).2.1, (hagree c).2.2.1,
    (hagree c).2.2.2.1, (hagree c).2.2.2.2.1, (hagree c).2.2.2.2.2]
  exact (Cert.GcnLayer.output_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
